-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S2x512x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S128x1024 : Shape := ⟨2, ![128, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S64x512x1024 .f32) (main_arg1 : FVec F S128x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S64x512x1024 : Shape := ⟨3, ![64, 512, 1024]⟩
abbrev S128x1024 : Shape := ⟨2, ![128, 1024]⟩
abbrev S64x512x128 : Shape := ⟨3, ![64, 512, 128]⟩
abbrev S64x512x512 : Shape := ⟨3, ![64, 512, 512]⟩
abbrev S2x512x1024 : Shape := ⟨3, ![2, 512, 1024]⟩
abbrev S2x512x128 : Shape := ⟨3, ![2, 512, 128]⟩
abbrev S2x512x512 : Shape := ⟨3, ![2, 512, 512]⟩
abbrev S1024x1024 : Shape := ⟨2, ![1024, 1024]⟩
abbrev S1024x128 : Shape := ⟨2, ![1024, 128]⟩
abbrev S2x512 : Shape := ⟨2, ![2, 512]⟩
abbrev S2x512x1 : Shape := ⟨3, ![2, 512, 1]⟩
abbrev S2x1x512 : Shape := ⟨3, ![2, 1, 512]⟩

abbrev nBuf : Space → Nat
  | .hbm => 5
  | .vmem => 7
  | .smem => 0
  | _ => 0

abbrev bufTy : (tb : Table) → Fin (tcTables nBuf tb) → BufTy
  | .hbm, ⟨0, _⟩ => ⟨S64x512x1024, .f32⟩
  | .hbm, ⟨1, _⟩ => ⟨S128x1024, .f32⟩
  | .hbm, ⟨2, _⟩ => ⟨S128x1024, .bf16⟩
  | .hbm, ⟨3, _⟩ => ⟨S64x512x128, .f32⟩
  | .hbm, ⟨4, _⟩ => ⟨S64x512x512, .f32⟩
  | .local _ .vmem, ⟨0, _⟩ => ⟨S2x512x1024, .f32⟩
  | .local _ .vmem, ⟨1, _⟩ => ⟨S2x512x1024, .f32⟩
  | .local _ .vmem, ⟨2, _⟩ => ⟨S128x1024, .bf16⟩
  | .local _ .vmem, ⟨3, _⟩ => ⟨S2x512x128, .f32⟩
  | .local _ .vmem, ⟨4, _⟩ => ⟨S2x512x128, .f32⟩
  | .local _ .vmem, ⟨5, _⟩ => ⟨S2x512x512, .f32⟩
  | .local _ .vmem, ⟨6, _⟩ => ⟨S2x512x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  inb_S2x512x1024_S2x512x1024_0_0_0 : ∀ a, (![0, 0, 0] : Fin 3 → Nat) a + S2x512x1024.size a ≤ S2x512x1024.size a
  h_S2x512x1024 : 0 < S2x512x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S2x512x1024_S1024x1024 : S2x512x1024.ShapeCasts S1024x1024
  shapeCasts_S1024x128_S2x512x128 : S1024x128.ShapeCasts S2x512x128
  inb_S2x512x128_S2x512x128_0_0_0 : ∀ a, (![0, 0, 0] : Fin 3 → Nat) a + S2x512x128.size a ≤ S2x512x128.size a
  h_S2x512x128 : 0 < S2x512x128.numel
  reduces_S2x512x128_S2x512 : S2x512x128.Reduces [2] S2x512
  shapeCasts_S2x512_S2x512x1 : S2x512.ShapeCasts S2x512x1
  transposes_S2x512x1_p0_2_1_S2x1x512 : S2x512x1.Transposes [0, 2, 1] S2x1x512
  broadcasts_S2x512x1_S2x512x512 : S2x512x1.Broadcasts S2x512x512
  broadcasts_S2x1x512_S2x512x512 : S2x1x512.Broadcasts S2x512x512
  inb_S2x512x512_S2x512x512_0_0_0 : ∀ a, (![0, 0, 0] : Fin 3 → Nat) a + S2x512x512.size a ≤ S2x512x512.size a
  h_S2x512x512 : 0 < S2x512x512.numel
  dot_S1024x1024_S128x1024_S1024x128_1_1_0_0_n_n_wf : DotDims.WF S1024x1024 S128x1024 S1024x128 [1] [1] [0] [0] [] []
  dot_S2x512x128_S2x512x128_S2x512x512_2_2_1_1_0_0_wf : DotDims.WF S2x512x128 S2x512x128 S2x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x1024.size a ≤ S64x512x1024.size a
  hwx0_0 : ∀ i : grid0.Coords, EltTy.bits .f32 = 32 ∨ (Rect.block (s := S64x512x1024) S2x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .bf16 = 32 ∨ (Rect.block (s := S128x1024) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x128.size a ≤ S64x512x128.size a
  hwx0_2 : ∀ i : grid0.Coords, EltTy.bits .f32 = 32 ∨ (Rect.block (s := S64x512x128) S2x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S64x512x512.size a
  hwx0_3 : ∀ i : grid0.Coords, EltTy.bits .f32 = 32 ∨ (Rect.block (s := S64x512x512) S2x512x512.size (cc0_transform_3 i) (hinb0_3 i)).WholeWords (EltTy.packing .f32)

variable [Facts₀]

def dot_S1024x1024_S128x1024_S1024x128_1_1_0_0_n_n : DotDims S1024x1024 S128x1024 S1024x128 where
  lhsContracting := [1]
  rhsContracting := [1]
  lhsNonContracting := [0]
  rhsNonContracting := [0]
  lhsBatch := []
  rhsBatch := []
  wf := dot_S1024x1024_S128x1024_S1024x128_1_1_0_0_n_n_wf
def dot_S2x512x128_S2x512x128_S2x512x512_2_2_1_1_0_0 : DotDims S2x512x128 S2x512x128 S2x512x512 where
  lhsContracting := [2]
  rhsContracting := [2]
  lhsNonContracting := [1]
  rhsNonContracting := [1]
  lhsBatch := [0]
  rhsBatch := [0]
  wf := dot_S2x512x128_S2x512x128_S2x512x512_2_2_1_1_0_0_wf

abbrev win0_0 : Pipeline.Window sig grid0 :=
  Pipeline.Window.ofSpec (Memref.whole main_arg0) S2x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2x512x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S128x1024 : Shape := ⟨2, ![128, 1024]⟩
abbrev S64x512x128 : Shape := ⟨3, ![64, 512, 128]⟩
abbrev S_ : Shape := ⟨0, ![]⟩
abbrev S64x512 : Shape := ⟨2, ![64, 512]⟩
abbrev S64x512x512 : Shape := ⟨3, ![64, 512, 512]⟩
abbrev S64x512x1 : Shape := ⟨3, ![64, 512, 1]⟩
abbrev S64x1x512 : Shape := ⟨3, ![64, 1, 512]⟩

abbrev nBuf : Space → Nat
  | .hbm => 19
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S128x1024, .f32⟩
  | .hbm, ⟨2, _⟩ => ⟨S64x512x128, .f32⟩
  | .hbm, ⟨3, _⟩ => ⟨S64x512x128, .f32⟩
  | .hbm, ⟨4, _⟩ => ⟨S_, .f32⟩
  | .hbm, ⟨5, _⟩ => ⟨S64x512, .f32⟩
  | .hbm, ⟨6, _⟩ => ⟨S64x512x512, .f32⟩
  | .hbm, ⟨7, _⟩ => ⟨S64x512x1, .f32⟩
  | .hbm, ⟨8, _⟩ => ⟨S64x1x512, .f32⟩
  | .hbm, ⟨9, _⟩ => ⟨S64x512x512, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .f32⟩
  | .hbm, ⟨15, _⟩ => ⟨S64x512x512, .f32⟩
  | .hbm, ⟨16, _⟩ => ⟨S_, .f32⟩
  | .hbm, ⟨17, _⟩ => ⟨S64x512x512, .f32⟩
  | .hbm, ⟨18, _⟩ => ⟨S64x512x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S64x512x128_S64x512_d2 : S64x512x128.ReducesTo [2] S64x512
  h_S_ : 0 < S_.numel
  bcast_S64x512_S64x512x1_0_1 : S64x512.BroadcastsInDim S64x512x1 (![0, 1] : Fin 2 → Fin S64x512x1.rank)
  bcast_S64x512_S64x1x512_0_2 : S64x512.BroadcastsInDim S64x1x512 (![0, 2] : Fin 2 → Fin S64x1x512.rank)
  bcast_S64x512x1_S64x512x512_0_1_2 : S64x512x1.BroadcastsInDim S64x512x512 (![0, 1, 2] : Fin 3 → Fin S64x512x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  dot_S64x512x1024_S128x1024_S64x512x128_2_1_01_0_n_n_wf : DotDims.WF S64x512x1024 S128x1024 S64x512x128 [2] [1] [0, 1] [0] [] []
  dot_S64x512x128_S64x512x128_S64x512x512_2_2_1_1_0_0_wf : DotDims.WF S64x512x128 S64x512x128 S64x512x512 [2] [2] [1] [1] [0] [0]

variable [Facts₀]

def dot_S64x512x1024_S128x1024_S64x512x128_2_1_01_0_n_n : DotDims S64x512x1024 S128x1024 S64x512x128 where
  lhsContracting := [2]
  rhsContracting := [1]
  lhsNonContracting := [0, 1]
  rhsNonContracting := [0]
  lhsBatch := []
  rhsBatch := []
  wf := dot_S64x512x1024_S128x1024_S64x512x128_2_1_01_0_n_n_wf
def dot_S64x512x128_S64x512x128_S64x512x512_2_2_1_1_0_0 : DotDims S64x512x128 S64x512x128 S64x512x512 where
  lhsContracting := [2]
  rhsContracting := [2]
  lhsNonContracting := [1]
  rhsNonContracting := [1]
  lhsBatch := [0]
  rhsBatch := [0]
  wf := dot_S64x512x128_S64x512x128_S64x512x512_2_2_1_1_0_0_wf

class Facts : Prop extends Facts₀ where

variable [Facts]
-- ==== Proof.Spec.lean ====
/-
  The structural probe as one function of its two arguments, index by index, over the extended reals.

  A sentence batch `x` holds 64 sentences of 512 tokens, each token an embedding of 1024 numbers; the weight
  matrix `w` has 128 rows of 1024 numbers. The probe first projects every token onto the 128 rows,

      dep (b, l, o) = ∑ k, x (b, l, k) · w (o, k),

  and then tabulates, sentence by sentence, the squared Euclidean distance between every two projected tokens
  through the polarization identity |u − v|² = |u|² + |v|² − 2 u·v, clipped below at zero:

      dist (b, i, j) = max ((∑ o, dep (b,i,o)²) + (∑ o, dep (b,j,o)²) − 2 · ∑ o, dep (b,i,o) · dep (b,j,o)) 0.

  Nothing here is simplified: the three sums stay three sums and are combined in exactly this grouping, so
  that both programs' results can be read down to these terms without using any law of the extended reals
  beyond reindexing a finite sum and `0 + a = a`. The two float literals (2 and 0) are kept as their words.
-/
import Idealize.ShloMosaic.PureOps.Ideal
import Idealize.ShloMosaic.Lib.ValueIdx

noncomputable section

open scoped BigOperators

namespace Cert.Probe

open Idealize.ShloMosaic Idealize.ShloMosaic.ValueIdx

/-- The sentence batch: 64 sentences × 512 tokens × 1024 embedding coordinates. -/
abbrev SEmb : Shape := ⟨3, ![64, 512, 1024]⟩
/-- The weight matrix: 128 probe rows × 1024 embedding coordinates. -/
abbrev SW : Shape := ⟨2, ![128, 1024]⟩
/-- The projected tokens: 64 × 512 × 128. -/
abbrev SDep : Shape := ⟨3, ![64, 512, 128]⟩
/-- The pairwise squared distances: 64 × 512 × 512. -/
abbrev SDist : Shape := ⟨3, ![64, 512, 512]⟩

/-- Coordinate `o` of token `(b, l)`'s projection: the inner product of the token's embedding with row `o`
    of the weight matrix. -/
def projAt (x : SEmb.Idx → EReal) (w : SW.Idx → EReal) (b : Fin 64) (l : Fin 512) (o : Fin 128) : EReal :=
  ∑ k : Fin 1024, x (ix3 b l k) * w (ix2 o k)

/-- The squared length of token `(b, l)`'s projection. -/
def sqAt (x : SEmb.Idx → EReal) (w : SW.Idx → EReal) (b : Fin 64) (l : Fin 512) : EReal :=
  ∑ o : Fin 128, projAt x w b l o * projAt x w b l o

/-- The inner product of the projections of tokens `i` and `j` of sentence `b`. -/
def gramAt (x : SEmb.Idx → EReal) (w : SW.Idx → EReal) (b : Fin 64) (i j : Fin 512) : EReal :=
  ∑ o : Fin 128, projAt x w b i o * projAt x w b j o

/-- The clipped squared distance between the projections of tokens `i` and `j` of sentence `b`. -/
def distAt (x : SEmb.Idx → EReal) (w : SW.Idx → EReal) (b : Fin 64) (i j : Fin 512) : EReal :=
  max (sqAt x w b i + sqAt x w b j - Ideal.ofBits .f32 0x40000000#32 * gramAt x w b i j) (Ideal.ofBits .f32 0x00000000#32)

/-- The projected tokens as one array. -/
def proj (x : SEmb.Idx → EReal) (w : SW.Idx → EReal) : SDep.Idx → EReal :=
  fun i => projAt x w (i 0) (i 1) (i 2)

/-- The pairwise squared distances as one array. -/
def dist (x : SEmb.Idx → EReal) (w : SW.Idx → EReal) : SDist.Idx → EReal :=
  fun i => distAt x w (i 0) (i 1) (i 2)

end Cert.Probe

end
-- ==== Proof.Projection.lean ====
/-
  The kernel body's first stored value, read at one index of its block.

  At one grid point the body holds two sentences (a block of 2 × 512 × 1024) and the whole weight matrix. It
  flattens the two sentences into 1024 rows, multiplies by the transposed weights into a zero accumulator,
  and folds the 1024 × 128 product back into 2 × 512 × 128. Over the extended reals the change of float
  format before the product is the identity and the product into zero is the plain sum over the contracted
  coordinate, so entry (p, r, o) of the stored block is  ∑ k, block (p, r, k) · weights (o, k): row
  p · 512 + r of the flattened block is token r of sentence p.
-/
import proofs.«113304_j9405978378446_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx

/-- Token `r` of the block's sentence `p` is row `p · 512 + r` of the flattened block. -/
abbrev flatRow (p : Fin 2) (r : Fin 512) : Fin 1024 := ⟨p.val * 512 + r.val, by omega⟩

/-- The flattening read at an index: row `p · 512 + r`, column `k` of the flattened block is entry
    `(p, r, k)` of the block (same row-major position). -/
theorem flatten_apply (v0 : Vec Ideal S2x512x1024 .f32) (p : Fin 2) (r : Fin 512) (k : Fin 1024) :
    shapeCast S1024x1024 v0 shapeCasts_S2x512x1024_S1024x1024 (ix2 (flatRow p r) k) = v0 (ix3 p r k) := by
  refine shapeCast_apply v0 shapeCasts_S2x512x1024_S1024x1024 (ix2 (flatRow p r) k) (ix3 p r k) ?_
  rw [Shape.rowMajor_val_two, Shape.rowMajor_val_three]
  rfl

/-! The product's operand indices, coordinate by coordinate: rows × columns of the flattened block against
    rows × columns of the weights, both contracted along their second axis. -/

theorem projL_row (i : S1024x128.Idx) (q : dot_S1024x1024_S128x1024_S1024x128_1_1_0_0_n_n.contr.Idx) : (dot_S1024x1024_S128x1024_S1024x128_1_1_0_0_n_n.lhsIdx i q 0).val = (i 0).val := by
  unfold DotDims.lhsIdx
  rw [dif_neg (show ¬(0 : Fin S1024x1024.rank) ∈ dot_S1024x1024_S128x1024_S1024x128_1_1_0_0_n_n.lhsBatch by decide),
    dif_pos (show (0 : Fin S1024x1024.rank) ∈ dot_S1024x1024_S128x1024_S1024x128_1_1_0_0_n_n.lhsNonContracting by decide)]
  rfl
theorem projL_contr (i : S1024x128.Idx) (q : dot_S1024x1024_S128x1024_S1024x128_1_1_0_0_n_n.contr.Idx) : (dot_S1024x1024_S128x1024_S1024x128_1_1_0_0_n_n.lhsIdx i q 1).val = (q ⟨0, by decide⟩).val :=
  dot_S1024x1024_S128x1024_S1024x128_1_1_0_0_n_n.lhsIdx_val_of_single rfl i q
theorem projR_row (i : S1024x128.Idx) (q : dot_S1024x1024_S128x1024_S1024x128_1_1_0_0_n_n.contr.Idx) : (dot_S1024x1024_S128x1024_S1024x128_1_1_0_0_n_n.rhsIdx i q 0).val = (i 1).val := by
  unfold DotDims.rhsIdx
  rw [dif_neg (show ¬(0 : Fin S128x1024.rank) ∈ dot_S1024x1024_S128x1024_S1024x128_1_1_0_0_n_n.rhsBatch by decide),
    dif_pos (show (0 : Fin S128x1024.rank) ∈ dot_S1024x1024_S128x1024_S1024x128_1_1_0_0_n_n.rhsNonContracting by decide)]
  rfl
theorem projR_contr (i : S1024x128.Idx) (q : dot_S1024x1024_S128x1024_S1024x128_1_1_0_0_n_n.contr.Idx) : (dot_S1024x1024_S128x1024_S1024x128_1_1_0_0_n_n.rhsIdx i q 1).val = (q ⟨0, by decide⟩).val :=
  dot_S1024x1024_S128x1024_S1024x128_1_1_0_0_n_n.rhsIdx_val_of_single rfl i q

/-- The first stored value at an index: the inner product of token `(p, r)`'s embedding with weight row `o`. -/
theorem projection_apply (v0 : Vec Ideal S2x512x1024 .f32) (v1 : Vec Ideal S128x1024 .bf16)
    (p : Fin 2) (r : Fin 512) (o : Fin 128) :
    k0_pay1 (F := Ideal) v0 v1 (ix3 p r o) = ∑ k : Fin 1024, v0 (ix3 p r k) * v1 (ix2 o k) := by
  unfold k0_pay1
  refine (shapeCast_apply _ shapeCasts_S1024x128_S2x512x128 (ix3 p r o) (ix2 (flatRow p r) o) ?_).trans ?_
  · rw [Shape.rowMajor_val_two, Shape.rowMajor_val_three]
    rfl
  simp only [matmul]
  refine (Ideal.matmul_constant_zero_apply dot_S1024x1024_S128x1024_S1024x128_1_1_0_0_n_n none _ _ (ix2 (flatRow p r) o)).trans ?_
  rw [← Equiv.sum_comp (contrEquiv1 dot_S1024x1024_S128x1024_S1024x128_1_1_0_0_n_n 1024 rfl rfl).symm]
  refine Finset.sum_congr rfl fun k _ => ?_
  have hk := contrEquiv1_symm_val dot_S1024x1024_S128x1024_S1024x128_1_1_0_0_n_n 1024 rfl rfl k
  have el : dot_S1024x1024_S128x1024_S1024x128_1_1_0_0_n_n.lhsIdx (ix2 (flatRow p r) o) ((contrEquiv1 dot_S1024x1024_S128x1024_S1024x128_1_1_0_0_n_n 1024 rfl rfl).symm k) = ix2 (flatRow p r) k :=
    funext fun a => Fin.ext (by
      match a with
      | ⟨0, _⟩ => exact projL_row _ _
      | ⟨1, _⟩ => exact (projL_contr _ _).trans hk)
  have er : dot_S1024x1024_S128x1024_S1024x128_1_1_0_0_n_n.rhsIdx (ix2 (flatRow p r) o) ((contrEquiv1 dot_S1024x1024_S128x1024_S1024x128_1_1_0_0_n_n 1024 rfl rfl).symm k) = ix2 o k :=
    funext fun a => Fin.ext (by
      match a with
      | ⟨0, _⟩ => exact projR_row _ _
      | ⟨1, _⟩ => exact (projR_contr _ _).trans hk)
  rw [el, er, shapeCast_self]
  exact congrArg (· * v1 (ix2 o k)) (flatten_apply v0 p r k)

end Cert.KernelIdeal.Bridge

end
-- ==== Proof.Distance.lean ====
/-
  The kernel body's second stored value, read at one index of its block.

  From the projected block `d` (2 sentences × 512 tokens × 128 coordinates) the body forms, per sentence,
  the 512 × 512 table of inner products `∑ o, d (p,i,o) · d (p,j,o)` (a batched product into a zero
  accumulator), the squared lengths `∑ o, d (p,i,o)²` as a column (a sum along the last axis, kept as an
  axis of extent one), that column again laid as a row (a transpose of the two last axes), and combines
  them entry by entry: column + row − 2 · table, clipped below at zero. Read at entry (p, i, j) every
  re-laying picks one entry of its operand — the column is read at token `i`, the row at token `j` —
  so the stored value is
      max ((∑ o, d (p,i,o)²) + (∑ o, d (p,j,o)²) − 2 · ∑ o, d (p,i,o) · d (p,j,o)) 0.
  The change of float format before the product and the cancelled round trip before the squares are the
  identity over the extended reals, so all three sums read the same `d`.
-/
import proofs.«113304_j9405978378446_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bridge

open Cert.KernelIdeal Cert.KernelIdeal.Gen Idealize.ShloMosaic Idealize.ShloMosaic.ValueIdx

/-! ## The table of inner products -/

/-! The batched product's operand indices, coordinate by coordinate: sentence × token × coordinate on both
    sides, the sentence axis shared, the coordinate axis contracted. -/

theorem gramL_batch (i : S2x512x512.Idx) (q : dot_S2x512x128_S2x512x128_S2x512x512_2_2_1_1_0_0.contr.Idx) : (dot_S2x512x128_S2x512x128_S2x512x512_2_2_1_1_0_0.lhsIdx i q 0).val = (i 0).val := by
  unfold DotDims.lhsIdx
  rw [dif_pos (show (0 : Fin S2x512x128.rank) ∈ dot_S2x512x128_S2x512x128_S2x512x512_2_2_1_1_0_0.lhsBatch by decide)]
  rfl
theorem gramL_row (i : S2x512x512.Idx) (q : dot_S2x512x128_S2x512x128_S2x512x512_2_2_1_1_0_0.contr.Idx) : (dot_S2x512x128_S2x512x128_S2x512x512_2_2_1_1_0_0.lhsIdx i q 1).val = (i 1).val := by
  unfold DotDims.lhsIdx
  rw [dif_neg (show ¬(1 : Fin S2x512x128.rank) ∈ dot_S2x512x128_S2x512x128_S2x512x512_2_2_1_1_0_0.lhsBatch by decide),
    dif_pos (show (1 : Fin S2x512x128.rank) ∈ dot_S2x512x128_S2x512x128_S2x512x512_2_2_1_1_0_0.lhsNonContracting by decide)]
  rfl
theorem gramL_contr (i : S2x512x512.Idx) (q : dot_S2x512x128_S2x512x128_S2x512x512_2_2_1_1_0_0.contr.Idx) : (dot_S2x512x128_S2x512x128_S2x512x512_2_2_1_1_0_0.lhsIdx i q 2).val = (q ⟨0, by decide⟩).val :=
  dot_S2x512x128_S2x512x128_S2x512x512_2_2_1_1_0_0.lhsIdx_val_of_single rfl i q
theorem gramR_batch (i : S2x512x512.Idx) (q : dot_S2x512x128_S2x512x128_S2x512x512_2_2_1_1_0_0.contr.Idx) : (dot_S2x512x128_S2x512x128_S2x512x512_2_2_1_1_0_0.rhsIdx i q 0).val = (i 0).val := by
  unfold DotDims.rhsIdx
  rw [dif_pos (show (0 : Fin S2x512x128.rank) ∈ dot_S2x512x128_S2x512x128_S2x512x512_2_2_1_1_0_0.rhsBatch by decide)]
  rfl
theorem gramR_row (i : S2x512x512.Idx) (q : dot_S2x512x128_S2x512x128_S2x512x512_2_2_1_1_0_0.contr.Idx) : (dot_S2x512x128_S2x512x128_S2x512x512_2_2_1_1_0_0.rhsIdx i q 1).val = (i 2).val := by
  unfold DotDims.rhsIdx
  rw [dif_neg (show ¬(1 : Fin S2x512x128.rank) ∈ dot_S2x512x128_S2x512x128_S2x512x512_2_2_1_1_0_0.rhsBatch by decide),
    dif_pos (show (1 : Fin S2x512x128.rank) ∈ dot_S2x512x128_S2x512x128_S2x512x512_2_2_1_1_0_0.rhsNonContracting by decide)]
  rfl
theorem gramR_contr (i : S2x512x512.Idx) (q : dot_S2x512x128_S2x512x128_S2x512x512_2_2_1_1_0_0.contr.Idx) : (dot_S2x512x128_S2x512x128_S2x512x512_2_2_1_1_0_0.rhsIdx i q 2).val = (q ⟨0, by decide⟩).val :=
  dot_S2x512x128_S2x512x128_S2x512x512_2_2_1_1_0_0.rhsIdx_val_of_single rfl i q

/-- Entry (p, i, j) of the batched product of `d` with itself: the inner product of tokens `i` and `j` of
    sentence `p`. -/
theorem gram_apply (d : FVec Ideal S2x512x128 .f32) (p : Fin 2) (i j : Fin 512) :
    matmul dot_S2x512x128_S2x512x128_S2x512x512_2_2_1_1_0_0 none (truncf .bf16 d bitsLt_bf16_f32) (truncf .bf16 d bitsLt_bf16_f32)
        (constant S2x512x512 .f32 0x00000000#32) (ix3 p i j)
      = ∑ o : Fin 128, d (ix3 p i o) * d (ix3 p j o) := by
  simp only [matmul]
  refine (Ideal.matmul_constant_zero_apply dot_S2x512x128_S2x512x128_S2x512x512_2_2_1_1_0_0 none _ _ (ix3 p i j)).trans ?_
  rw [← Equiv.sum_comp (contrEquiv1 dot_S2x512x128_S2x512x128_S2x512x512_2_2_1_1_0_0 128 rfl rfl).symm]
  refine Finset.sum_congr rfl fun k _ => ?_
  have hk := contrEquiv1_symm_val dot_S2x512x128_S2x512x128_S2x512x512_2_2_1_1_0_0 128 rfl rfl k
  have el : dot_S2x512x128_S2x512x128_S2x512x512_2_2_1_1_0_0.lhsIdx (ix3 p i j) ((contrEquiv1 dot_S2x512x128_S2x512x128_S2x512x512_2_2_1_1_0_0 128 rfl rfl).symm k) = ix3 p i k :=
    funext fun a => Fin.ext (by
      match a with
      | ⟨0, _⟩ => exact gramL_batch _ _
      | ⟨1, _⟩ => exact gramL_row _ _
      | ⟨2, _⟩ => exact (gramL_contr _ _).trans hk)
  have er : dot_S2x512x128_S2x512x128_S2x512x512_2_2_1_1_0_0.rhsIdx (ix3 p i j) ((contrEquiv1 dot_S2x512x128_S2x512x128_S2x512x512_2_2_1_1_0_0 128 rfl rfl).symm k) = ix3 p j k :=
    funext fun a => Fin.ext (by
      match a with
      | ⟨0, _⟩ => exact gramR_batch _ _
      | ⟨1, _⟩ => exact gramR_row _ _
      | ⟨2, _⟩ => exact (gramR_contr _ _).trans hk)
  rw [el, er]
  rfl

/-! ## The squared lengths, as a column and as a row -/

/-- The sum of `d`'s squares along the coordinate axis, at token (p, i). -/
theorem sqsum_apply (d : FVec Ideal S2x512x128 .f32) (p : Fin 2) (i : Fin 512) :
    multiReduction .add [2] S2x512 (mulf d d) 0x00000000#32 reduces_S2x512x128_S2x512 (.inl rfl) rfl (ix2 p i)
      = ∑ o : Fin 128, d (ix3 p i o) * d (ix3 p i o) := by
  refine (Ideal.multiReduction_add_single (mulf d d) _ reduces_S2x512x128_S2x512 _ _ (ix2 p i)).trans ?_
  refine Finset.sum_congr rfl fun o _ => ?_
  have e : reduces_S2x512x128_S2x512.lift (ix2 p i) o = ix3 p i o :=
    funext fun a => Fin.ext (by match a with | ⟨0, _⟩ => rfl | ⟨1, _⟩ => rfl | ⟨2, _⟩ => rfl)
  rw [e]
  rfl

/-- A 2 × 512 array given a trailing axis of extent one reads entry (p, i) at (p, i, 0). -/
theorem keepdims_apply (s : FVec Ideal S2x512 .f32) (p : Fin 2) (i : Fin 512) :
    shapeCast S2x512x1 s shapeCasts_S2x512_S2x512x1 (ix3 p i (0 : Fin 1)) = s (ix2 p i) := by
  refine shapeCast_apply s shapeCasts_S2x512_S2x512x1 (ix3 p i (0 : Fin 1)) (ix2 p i) ?_
  rw [Shape.rowMajor_val_two, Shape.rowMajor_val_three]
  show p.val * 512 + i.val = (p.val * 512 + i.val) * 1 + 0
  omega

/-- Swapping the two last axes of a 2 × 512 × 1 column: entry (p, 0, j) of the row is entry (p, j, 0) of the
    column. -/
theorem swap_apply (c : FVec Ideal S2x512x1 .f32) (p : Fin 2) (j : Fin 512) :
    transpose S2x1x512 [0, 2, 1] c transposes_S2x512x1_p0_2_1_S2x1x512 (ix3 p (0 : Fin 1) j) = c (ix3 p j (0 : Fin 1)) :=
  transpose_apply [0, 2, 1] c transposes_S2x512x1_p0_2_1_S2x1x512 (ix3 p (0 : Fin 1) j) (ix3 p j (0 : Fin 1))
    (fun b => match b with | ⟨0, _⟩ => rfl | ⟨1, _⟩ => rfl | ⟨2, _⟩ => rfl)

/-- A column repeated along the last axis: entry (p, i, j) is the column's entry for token `i`. -/
theorem alongRows_apply (c : FVec Ideal S2x512x1 .f32) (p : Fin 2) (i j : Fin 512) :
    broadcastTo S2x512x512 c broadcasts_S2x512x1_S2x512x512 (ix3 p i j) = c (ix3 p i (0 : Fin 1)) :=
  broadcastTo_apply c broadcasts_S2x512x1_S2x512x512 (ix3 p i j) (ix3 p i (0 : Fin 1)) (fun a => match a with
    | ⟨0, _⟩ => by show p.val = if (2 : Nat) = 1 then 0 else p.val; rw [if_neg (by decide)]
    | ⟨1, _⟩ => by show i.val = if (512 : Nat) = 1 then 0 else i.val; rw [if_neg (by decide)]
    | ⟨2, _⟩ => by show 0 = if (1 : Nat) = 1 then 0 else j.val; rw [if_pos rfl])

/-- A row repeated along the middle axis: entry (p, i, j) is the row's entry for token `j`. -/
theorem alongCols_apply (r : FVec Ideal S2x1x512 .f32) (p : Fin 2) (i j : Fin 512) :
    broadcastTo S2x512x512 r broadcasts_S2x1x512_S2x512x512 (ix3 p i j) = r (ix3 p (0 : Fin 1) j) :=
  broadcastTo_apply r broadcasts_S2x1x512_S2x512x512 (ix3 p i j) (ix3 p (0 : Fin 1) j) (fun a => match a with
    | ⟨0, _⟩ => by show p.val = if (2 : Nat) = 1 then 0 else p.val; rw [if_neg (by decide)]
    | ⟨1, _⟩ => by show 0 = if (1 : Nat) = 1 then 0 else i.val; rw [if_pos rfl]
    | ⟨2, _⟩ => by show j.val = if (512 : Nat) = 1 then 0 else j.val; rw [if_neg (by decide)])

/-! ## The second stored value -/

/-- What the body computes from the projected block `d`, entry by entry: the clipped squared distance of tokens
    `i` and `j` of sentence `p`, by the polarization identity. -/
theorem distance_of_projection (d : FVec Ideal S2x512x128 .f32) (p : Fin 2) (i j : Fin 512) :
    maximumf
        (subf
          (addf
            (broadcastTo S2x512x512
              (shapeCast S2x512x1 (multiReduction .add [2] S2x512 (mulf d d) 0x00000000#32 reduces_S2x512x128_S2x512 (.inl rfl) rfl)
                shapeCasts_S2x512_S2x512x1) broadcasts_S2x512x1_S2x512x512)
            (broadcastTo S2x512x512
              (transpose S2x1x512 [0, 2, 1]
                (shapeCast S2x512x1 (multiReduction .add [2] S2x512 (mulf d d) 0x00000000#32 reduces_S2x512x128_S2x512 (.inl rfl) rfl)
                  shapeCasts_S2x512_S2x512x1) transposes_S2x512x1_p0_2_1_S2x1x512) broadcasts_S2x1x512_S2x512x512))
          (mulf (broadcast S2x512x512 (Scalar.ofBits (F := Ideal) .f32 0x40000000#32))
            (matmul dot_S2x512x128_S2x512x128_S2x512x512_2_2_1_1_0_0 none (truncf .bf16 d bitsLt_bf16_f32) (truncf .bf16 d bitsLt_bf16_f32)
              (constant S2x512x512 .f32 0x00000000#32))))
        (broadcast S2x512x512 (Scalar.ofBits (F := Ideal) .f32 0x00000000#32)) (ix3 p i j)
      = max ((∑ o : Fin 128, d (ix3 p i o) * d (ix3 p i o)) + (∑ o : Fin 128, d (ix3 p j o) * d (ix3 p j o))
              - Ideal.ofBits .f32 0x40000000#32 * ∑ o : Fin 128, d (ix3 p i o) * d (ix3 p j o))
            (Ideal.ofBits .f32 0x00000000#32) := by
  rw [maximumf_apply, subf_apply, addf_apply, mulf_apply, broadcast_apply, broadcast_apply,
    alongRows_apply, alongCols_apply, swap_apply, keepdims_apply, keepdims_apply, sqsum_apply, sqsum_apply, gram_apply]
  rfl

/-- The second stored value at an index, over the first: the body's distance table is `distance_of_projection`
    of its own projected block. -/
theorem distance_apply (v0 : Vec Ideal S2x512x1024 .f32) (v1 : Vec Ideal S128x1024 .bf16) (p : Fin 2) (i j : Fin 512) :
    k0_pay2 (F := Ideal) v0 v1 (ix3 p i j)
      = max ((∑ o : Fin 128, k0_pay1 (F := Ideal) v0 v1 (ix3 p i o) * k0_pay1 (F := Ideal) v0 v1 (ix3 p i o))
              + (∑ o : Fin 128, k0_pay1 (F := Ideal) v0 v1 (ix3 p j o) * k0_pay1 (F := Ideal) v0 v1 (ix3 p j o))
              - Ideal.ofBits .f32 0x40000000#32
                * ∑ o : Fin 128, k0_pay1 (F := Ideal) v0 v1 (ix3 p i o) * k0_pay1 (F := Ideal) v0 v1 (ix3 p j o))
            (Ideal.ofBits .f32 0x00000000#32) :=
  distance_of_projection (k0_pay1 (F := Ideal) v0 v1) p i j

end Cert.KernelIdeal.Bridge

end
-- ==== Proof.Arrays.lean ====
/-
  From blocks to whole arrays: what the kernel's run leaves in its two result arrays.

  The grid has 32 points; point `t` stages sentences 2t and 2t + 1 of the batch (a block of 2 × 512 × 1024),
  the whole weight matrix — which the host has converted to the narrower float format before the region, an
  identity over the extended reals —, and writes back block `t` of each result: sentences 2t, 2t + 1 of the
  projected tokens and of the distance tables. Both results depend on a sentence only through that same
  sentence of the batch, so what point `t` writes is block `t` of the whole-array functions `Probe.proj` and
  `Probe.dist` of the arguments; the 32 blocks tile the 64 sentences (sentence `b` lies in block `b / 2`), so
  the arrays end holding exactly those functions.
-/
import proofs.«113304_j9405978378446_2_alg».proof.Proof.Gen.KernelIdeal.Value
import proofs.«113304_j9405978378446_2_alg».proof.Proof.Spec
import proofs.«113304_j9405978378446_2_alg».proof.Proof.Projection
import proofs.«113304_j9405978378446_2_alg».proof.Proof.Distance
import Idealize.ShloMosaic.Lib.Pipeline.Value
import Idealize.ShloMosaic.Lib.StableHlo.Run

noncomputable section

open scoped BigOperators

namespace Cert.KernelIdeal.Bridge

open Cert.KernelIdeal Cert.KernelIdeal.Gen Idealize.ShloMosaic Idealize.ShloMosaic.TcCoe Idealize.SL.Sem
open Idealize.ShloMosaic.ValueIdx
open Idealize.ShloMosaic.Pipeline (Dat)

/-! ## One block's values from one sentence pair -/

/-- If sentence `p` of the staged block is sentence `b` of the batch and the staged weights are the weight
    matrix, the body's projected block at sentence `p` is the batch's projection at sentence `b`. -/
theorem block_proj (x0 : Vec Ideal S2x512x1024 .f32) (x1 : Vec Ideal S128x1024 .bf16)
    (X : Probe.SEmb.Idx → EReal) (W : Probe.SW.Idx → EReal) (p : Fin 2) (b : Fin 64)
    (hx0 : ∀ (r : Fin 512) (k : Fin 1024), x0 (ix3 p r k) = X (ix3 b r k))
    (hx1 : ∀ (o : Fin 128) (k : Fin 1024), x1 (ix2 o k) = W (ix2 o k)) (r : Fin 512) (o : Fin 128) :
    k0_pay1 (F := Ideal) x0 x1 (ix3 p r o) = Probe.projAt X W b r o := by
  rw [projection_apply]
  unfold Probe.projAt
  exact Finset.sum_congr rfl fun k _ => by rw [hx0, hx1]

/-- Under the same hypotheses the body's distance table at sentence `p` is the batch's at sentence `b`. -/
theorem block_dist (x0 : Vec Ideal S2x512x1024 .f32) (x1 : Vec Ideal S128x1024 .bf16)
    (X : Probe.SEmb.Idx → EReal) (W : Probe.SW.Idx → EReal) (p : Fin 2) (b : Fin 64)
    (hx0 : ∀ (r : Fin 512) (k : Fin 1024), x0 (ix3 p r k) = X (ix3 b r k))
    (hx1 : ∀ (o : Fin 128) (k : Fin 1024), x1 (ix2 o k) = W (ix2 o k)) (i j : Fin 512) :
    k0_pay2 (F := Ideal) x0 x1 (ix3 p i j) = Probe.distAt X W b i j := by
  rw [distance_apply]
  unfold Probe.distAt Probe.sqAt Probe.gramAt
  simp only [block_proj x0 x1 X W p b hx0 hx1]

/-- The same two facts at an arbitrary index `y` of the block and the array index `i` it is written to: the
    sentence coordinates are related by the hypotheses on the staged block, the two others agree. -/
theorem block_proj_at (x0 : Vec Ideal S2x512x1024 .f32) (x1 : Vec Ideal S128x1024 .bf16)
    (X : Probe.SEmb.Idx → EReal) (W : Probe.SW.Idx → EReal) (y : S2x512x128.Idx) (i : Probe.SDep.Idx)
    (hx0 : ∀ (r : Fin 512) (k : Fin 1024), x0 (ix3 (y 0) r k) = X (ix3 (i 0) r k))
    (hx1 : ∀ (o : Fin 128) (k : Fin 1024), x1 (ix2 o k) = W (ix2 o k))
    (e1 : (i 1).val = (y 1).val) (e2 : (i 2).val = (y 2).val) :
    k0_pay1 (F := Ideal) x0 x1 y = Probe.proj X W i := by
  have hy : y = ix3 (y 0) (y 1) (y 2) := eq_ix3 y
  have h1 : (i 1 : Fin 512) = y 1 := Fin.ext e1
  have h2 : (i 2 : Fin 128) = y 2 := Fin.ext e2
  unfold Probe.proj
  rw [h1, h2, hy]
  exact block_proj x0 x1 X W (y 0) (i 0) hx0 hx1 (y 1) (y 2)

theorem block_dist_at (x0 : Vec Ideal S2x512x1024 .f32) (x1 : Vec Ideal S128x1024 .bf16)
    (X : Probe.SEmb.Idx → EReal) (W : Probe.SW.Idx → EReal) (y : S2x512x512.Idx) (i : Probe.SDist.Idx)
    (hx0 : ∀ (r : Fin 512) (k : Fin 1024), x0 (ix3 (y 0) r k) = X (ix3 (i 0) r k))
    (hx1 : ∀ (o : Fin 128) (k : Fin 1024), x1 (ix2 o k) = W (ix2 o k))
    (e1 : (i 1).val = (y 1).val) (e2 : (i 2).val = (y 2).val) :
    k0_pay2 (F := Ideal) x0 x1 y = Probe.dist X W i := by
  have hy : y = ix3 (y 0) (y 1) (y 2) := eq_ix3 y
  have h1 : (i 1 : Fin 512) = y 1 := Fin.ext e1
  have h2 : (i 2 : Fin 512) = y 2 := Fin.ext e2
  unfold Probe.dist
  rw [h1, h2, hy]
  exact block_dist x0 x1 X W (y 0) (i 0) hx0 hx1 (y 1) (y 2)

/-! ## The staged blocks at a grid point -/

variable (m : (ℓ : Loc nD τ sig) → Buf (Elt Ideal) ℓ) (ρ : Dev nD → PrngReg)

/-- Where each window's block sits at point `t`: the batch and both results move one block of two sentences
    per point along the sentence axis; the weights stay. Decided over the 32 points. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The region finds the weights' staging array holding the weight matrix in the narrower format. -/
theorem entry_weights (c : Dev nD) :
    @Eq (S128x1024.Idx → EReal) (V m c main_v0)
      (truncf (F := Ideal) (s := S128x1024) (φ := .f32) .bf16 (m ((c : Thread nD τ).loc main_arg1)) bitsLt_bf16_f32) := by
  dsimp only [Gen.V, Gen.hostOps0]
  after_results

/-- Sentence `p` of the batch's block at point `t` is sentence `2t + p` of the batch. -/
theorem emb_block (c : Dev nD) (t : Fin cfg0.N) (p : Fin 2) (b : Fin 64) (hb : b.val = 2 * t.val + p.val)
    (r : Fin 512) (k : Fin 1024) :
    iblk m c 0 t (ix3 p r k) = m ((c : Thread nD τ).loc main_arg0) (ix3 b r k) := by
  obtain ⟨e0, e1, e2, -⟩ := block_index t
  show V m c main_arg0 (((cfg0.win 0).blk t).view.emb (ix3 p r k)) = _
  rw [V_main_arg0]
  refine congrArg (m ((c : Thread nD τ).loc main_arg0)) (funext fun a => Fin.ext ?_)
  match a with
  | ⟨0, _⟩ => show win0_0.index t (0 : Fin 3) * 2 + 1 * p.val = b.val; omega
  | ⟨1, _⟩ => show win0_0.index t (1 : Fin 3) * 512 + 1 * r.val = r.val; omega
  | ⟨2, _⟩ => show win0_0.index t (2 : Fin 3) * 1024 + 1 * k.val = k.val; omega

/-- The weights' block at every point is the weight matrix (the format change is the identity). -/
theorem weights_block (c : Dev nD) (t : Fin cfg0.N) (o : Fin 128) (k : Fin 1024) :
    iblk m c 1 t (ix2 o k) = m ((c : Thread nD τ).loc main_arg1) (ix2 o k) := by
  obtain ⟨-, -, -, e0, e1, -⟩ := block_index t
  show V m c main_v0 (((cfg0.win 1).blk t).view.emb (ix2 o k)) = _
  refine (congrFun (entry_weights m c) _).trans ?_
  show m ((c : Thread nD τ).loc main_arg1) (((cfg0.win 1).blk t).view.emb (ix2 o k)) = _
  refine congrArg (m ((c : Thread nD τ).loc main_arg1)) (funext fun a => Fin.ext ?_)
  match a with
  | ⟨0, _⟩ => show win0_1.index t (0 : Fin 2) * 128 + 1 * o.val = o.val; omega
  | ⟨1, _⟩ => show win0_1.index t (1 : Fin 2) * 1024 + 1 * k.val = k.val; omega

/-! ## What each point writes back, and the arrays after the run -/

/-- The projected tokens of the launch arguments, as the first result array's contents. -/
abbrev depOf (c : Dev nD) : Buf (Elt Ideal) ((c : Thread nD τ).loc main_v1_0) :=
  Probe.proj (m ((c : Thread nD τ).loc main_arg0)) (m ((c : Thread nD τ).loc main_arg1))

/-- The distance tables of the launch arguments, as the second result array's contents. -/
abbrev distOf (c : Dev nD) : Buf (Elt Ideal) ((c : Thread nD τ).loc main_v1_1) :=
  Probe.dist (m ((c : Thread nD τ).loc main_arg0)) (m ((c : Thread nD τ).loc main_arg1))

theorem origin3 : (![0, 0, 0] : Fin 3 → Nat) = fun _ => 0 := funext fun a => by fin_cases a <;> rfl
theorem origin2 : (![0, 0] : Fin 2 → Nat) = fun _ => 0 := funext fun a => by fin_cases a <;> rfl

/-- Point `t` writes back block `t` of the projected tokens. -/
theorem flushed_dep (c : Dev nD) (t : Fin cfg0.N) :
    (dats m 0 c).flushed 2 t = ((cfg0.win 2).blk t).view.read (Elt Ideal) (depOf m c) := by
  rw [Value.flushed2]
  unfold out0_2
  rw [View.canon_unit_zero origin3]
  simp only [View.ld_unit_zero (S := S2x512x1024) origin3, View.ld_unit_zero (S := S128x1024) origin2]
  obtain ⟨-, -, -, -, -, e0, e1, e2, -⟩ := block_index t
  funext y
  show k0_pay1 (F := Ideal) (iblk m c 0 t) (iblk m c 1 t) y
    = Probe.proj (m ((c : Thread nD τ).loc main_arg0)) (m ((c : Thread nD τ).loc main_arg1)) (((cfg0.win 2).blk t).view.emb y)
  refine block_proj_at (iblk m c 0 t) (iblk m c 1 t) (m ((c : Thread nD τ).loc main_arg0)) (m ((c : Thread nD τ).loc main_arg1))
    y (((cfg0.win 2).blk t).view.emb y)
    (fun r k => emb_block m c t (y 0) ((((cfg0.win 2).blk t).view.emb y) 0) ?_ r k)
    (fun o k => weights_block m c t o k) ?_ ?_
  · show win0_2.index t (0 : Fin 3) * 2 + 1 * (y 0).val = 2 * t.val + (y 0).val; omega
  · show win0_2.index t (1 : Fin 3) * 512 + 1 * (y 1).val = (y 1).val; omega
  · show win0_2.index t (2 : Fin 3) * 128 + 1 * (y 2).val = (y 2).val; omega

/-- Point `t` writes back block `t` of the distance tables. -/
theorem flushed_dist (c : Dev nD) (t : Fin cfg0.N) :
    (dats m 0 c).flushed 3 t = ((cfg0.win 3).blk t).view.read (Elt Ideal) (distOf m c) := by
  rw [Value.flushed3]
  unfold out0_3
  rw [View.canon_unit_zero origin3]
  simp only [View.ld_unit_zero (S := S2x512x1024) origin3, View.ld_unit_zero (S := S128x1024) origin2]
  obtain ⟨-, -, -, -, -, -, -, -, e0, e1, e2⟩ := block_index t
  funext y
  show k0_pay2 (F := Ideal) (iblk m c 0 t) (iblk m c 1 t) y
    = Probe.dist (m ((c : Thread nD τ).loc main_arg0)) (m ((c : Thread nD τ).loc main_arg1)) (((cfg0.win 3).blk t).view.emb y)
  refine block_dist_at (iblk m c 0 t) (iblk m c 1 t) (m ((c : Thread nD τ).loc main_arg0)) (m ((c : Thread nD τ).loc main_arg1))
    y (((cfg0.win 3).blk t).view.emb y)
    (fun r k => emb_block m c t (y 0) ((((cfg0.win 3).blk t).view.emb y) 0) ?_ r k)
    (fun o k => weights_block m c t o k) ?_ ?_
  · show win0_3.index t (0 : Fin 3) * 2 + 1 * (y 0).val = 2 * t.val + (y 0).val; omega
  · show win0_3.index t (1 : Fin 3) * 512 + 1 * (y 1).val = (y 1).val; omega
  · show win0_3.index t (2 : Fin 3) * 512 + 1 * (y 2).val = (y 2).val; omega

/-- An index of the first result lies in point `t`'s block iff each coordinate lies in the block's range. -/
theorem mem_dep_block (t : Fin cfg0.N) (i : S64x512x128.Idx) :
    i ∈ ((cfg0.win 2).blk t).view.set ↔ ∀ a : Fin 3, win0_2.index t a * S2x512x128.size a ≤ (i a).val
      ∧ (i a).val < win0_2.index t a * S2x512x128.size a + S2x512x128.size a := by
  show i ∈ ((View.whole main_v1_0).slice (win0_2.rect t)).set ↔ _
  rw [View.set_slice_whole, Rect.mem_set_unit]
  exact Iff.rfl

/-- The same for the second result. -/
theorem mem_dist_block (t : Fin cfg0.N) (i : S64x512x512.Idx) :
    i ∈ ((cfg0.win 3).blk t).view.set ↔ ∀ a : Fin 3, win0_3.index t a * S2x512x512.size a ≤ (i a).val
      ∧ (i a).val < win0_3.index t a * S2x512x512.size a + S2x512x512.size a := by
  show i ∈ ((View.whole main_v1_1).slice (win0_3.rect t)).set ↔ _
  rw [View.set_slice_whole, Rect.mem_set_unit]
  exact Iff.rfl

/-- Every index of the first result is written: sentence `b` by point `b / 2`. -/
theorem cover_dep (i : S64x512x128.Idx) :
    ∃ t : Fin cfg0.N, (cfg0.win 2).flush t = true ∧ i ∈ ((cfg0.win 2).blk t).view.set := by
  have hN : cfg0.N = 32 := N_0
  have h0 : (i 0).val < 64 := (i 0).isLt
  have h1 : (i 1).val < 512 := (i 1).isLt
  have h2 : (i 2).val < 128 := (i 2).isLt
  have ht : (i 0).val / 2 < cfg0.N := by omega
  obtain ⟨-, -, -, -, -, e0, e1, e2, -⟩ := block_index ⟨(i 0).val / 2, ht⟩
  refine ⟨⟨(i 0).val / 2, ht⟩, flush0_2 _, ?_⟩
  rw [mem_dep_block]
  intro a
  match a with
  | ⟨0, _⟩ =>
    show win0_2.index ⟨(i 0).val / 2, ht⟩ (0 : Fin 3) * 2 ≤ (i 0).val ∧ (i 0).val < win0_2.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_2.index ⟨(i 0).val / 2, ht⟩ (1 : Fin 3) * 512 ≤ (i 1).val ∧ (i 1).val < win0_2.index ⟨(i 0).val / 2, ht⟩ (1 : Fin 3) * 512 + 512
    rw [e1]; omega
  | ⟨2, _⟩ =>
    show win0_2.index ⟨(i 0).val / 2, ht⟩ (2 : Fin 3) * 128 ≤ (i 2).val ∧ (i 2).val < win0_2.index ⟨(i 0).val / 2, ht⟩ (2 : Fin 3) * 128 + 128
    rw [e2]; omega

/-- Every index of the second result is written, likewise. -/
theorem cover_dist (i : S64x512x512.Idx) :
    ∃ t : Fin cfg0.N, (cfg0.win 3).flush t = true ∧ i ∈ ((cfg0.win 3).blk t).view.set := by
  have hN : cfg0.N = 32 := N_0
  have h0 : (i 0).val < 64 := (i 0).isLt
  have h1 : (i 1).val < 512 := (i 1).isLt
  have h2 : (i 2).val < 512 := (i 2).isLt
  have ht : (i 0).val / 2 < cfg0.N := by omega
  obtain ⟨-, -, -, -, -, -, -, -, e0, e1, e2⟩ := block_index ⟨(i 0).val / 2, ht⟩
  refine ⟨⟨(i 0).val / 2, ht⟩, flush0_3 _, ?_⟩
  rw [mem_dist_block]
  intro a
  match a with
  | ⟨0, _⟩ =>
    show win0_3.index ⟨(i 0).val / 2, ht⟩ (0 : Fin 3) * 2 ≤ (i 0).val ∧ (i 0).val < win0_3.index ⟨(i 0).val / 2, ht⟩ (0 : Fin 3) * 2 + 2
    rw [e0]; show (i 0).val / 2 * 2 ≤ (i 0).val ∧ (i 0).val < (i 0).val / 2 * 2 + 2; omega
  | ⟨1, _⟩ =>
    show win0_3.index ⟨(i 0).val / 2, ht⟩ (1 : Fin 3) * 512 ≤ (i 1).val ∧ (i 1).val < win0_3.index ⟨(i 0).val / 2, ht⟩ (1 : Fin 3) * 512 + 512
    rw [e1]; omega
  | ⟨2, _⟩ =>
    show win0_3.index ⟨(i 0).val / 2, ht⟩ (2 : Fin 3) * 512 ≤ (i 2).val ∧ (i 2).val < win0_3.index ⟨(i 0).val / 2, ht⟩ (2 : Fin 3) * 512 + 512
    rw [e2]; omega

/-- After the run the first result array holds the projected tokens of the launch arguments. -/
theorem final_dep (c : Dev nD) : (dats m 0 c).arrAt 2 cfg0.N = depOf m c :=
  (dats m 0 c).arrAt_eq_of_cover 2 (depOf m c) (fun t _ => flushed_dep m c t) cover_dep

/-- After the run the second result array holds their distance tables. -/
theorem final_dist (c : Dev nD) : (dats m 0 c).arrAt 3 cfg0.N = distOf m c :=
  (dats m 0 c).arrAt_eq_of_cover 3 (distOf m c) (fun t _ => flushed_dist m c t) cover_dist

/-- The kernel's run over the extended reals: every weakly fair execution terminates with the two result
    arrays at the probe's two functions of the launch arguments, and the arguments as launched. -/
theorem run : θ_run defs (onTc (τ := τ) (main (F := Ideal))) ⟨m, fun _ => 0, ρ⟩ fun r => ∀ c : Dev nD,
      r.2.mem ((c : Thread nD τ).loc main_v1_0) = depOf m c
      ∧ r.2.mem ((c : Thread nD τ).loc main_v1_1) = distOf m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_dep m c), (h c).2.1.trans (final_dist m c),
      (h c).2.2.1, (h c).2.2.2⟩)
    (Value.run_blocks m ρ)

end Cert.KernelIdeal.Bridge

end
-- ==== Proof.Reference.lean ====
/-
  The reference computes the probe's two functions.

  Its first result is one contraction of the batch with the weight matrix along the embedding axis: entry
  (b, l, o) is `∑ k, x (b,l,k) · w (o,k)`, the projection. Its second result squares the projection entry by
  entry and sums along the coordinate axis from the initial value 0 (so the squared length is `0 + ∑ o, dep²`,
  which is the sum), contracts the projection with itself sentence by sentence (the inner products), lays the
  squared lengths along rows and along columns, and combines: column + row − 2 · inner product, clipped below
  at zero — `Probe.dist`. Every re-laying reads its operand at one index, so the proof is reading the stages
  one after the other at an index and identifying the indices coordinate by coordinate.
-/
import proofs.«113304_j9405978378446_2_alg».proof.Proof.Gen.ReferenceIdeal.Read
import proofs.«113304_j9405978378446_2_alg».proof.Proof.Spec
import Idealize.ShloMosaic.Lib.ValueIdx
import Idealize.ShloMosaic.PureOps.Ideal.Laws

noncomputable section

open scoped BigOperators

namespace Cert.ReferenceIdeal.Bridge

open Cert.ReferenceIdeal Cert.ReferenceIdeal.Gen Cert.ReferenceIdeal.Read Idealize.ShloMosaic Idealize.ShloMosaic.ValueIdx

/-- The reference's first result is the projection. -/
theorem dep_eq (x0 : (⟨S64x512x1024, .f32⟩ : BufTy).Contents (Elt Ideal)) (x1 : (⟨S128x1024, .f32⟩ : BufTy).Contents (Elt Ideal)) :
    val_main_v0 (F := Ideal) x0 x1 = Probe.proj x0 x1 := by
  funext i
  rw [val_main_v0_apply]
  unfold Probe.proj Probe.projAt
  refine Finset.sum_congr rfl fun k _ => ?_
  have el : lidx_main_v0 i k = ix3 (i 0) (i 1) k :=
    funext fun a => Fin.ext (by match a with | ⟨0, _⟩ => rfl | ⟨1, _⟩ => rfl | ⟨2, _⟩ => rfl)
  have er : ridx_main_v0 i k = ix2 (i 2) k :=
    funext fun a => Fin.ext (by match a with | ⟨0, _⟩ => rfl | ⟨1, _⟩ => rfl)
  exact congrArg₂ (· * ·) (congrArg x0 el) (congrArg x1 er)

/-- The squared length the reference lays along rows and columns, at token (b, l): the sum from 0 of the
    projection's squares. -/
theorem sq_eq (x0 : (⟨S64x512x1024, .f32⟩ : BufTy).Contents (Elt Ideal)) (x1 : (⟨S128x1024, .f32⟩ : BufTy).Contents (Elt Ideal))
    (b : Fin 64) (l : Fin 512) :
    val_main_v2 (F := Ideal) x0 x1 (ix2 b l) = Probe.sqAt x0 x1 b l := by
  rw [val_main_v2_apply, val_main_cst_apply]
  unfold Probe.sqAt
  rw [Ideal.ofBits_def, Ideal.ofBits_zero_f32, zero_add]
  refine Finset.sum_congr rfl fun o _ => ?_
  rw [val_main_v1_apply, dep_eq, Ideal.mulf_def]
  rfl

/-- The inner products, at tokens (i, j) of sentence b. -/
theorem gram_eq (x0 : (⟨S64x512x1024, .f32⟩ : BufTy).Contents (Elt Ideal)) (x1 : (⟨S128x1024, .f32⟩ : BufTy).Contents (Elt Ideal))
    (b : Fin 64) (i j : Fin 512) :
    val_main_v3 (F := Ideal) x0 x1 (ix3 b i j) = Probe.gramAt x0 x1 b i j := by
  rw [val_main_v3_apply, dep_eq]
  unfold Probe.gramAt
  rfl

/-- The reference's second result is the distance table. -/
theorem dist_eq (x0 : (⟨S64x512x1024, .f32⟩ : BufTy).Contents (Elt Ideal)) (x1 : (⟨S128x1024, .f32⟩ : BufTy).Contents (Elt Ideal)) :
    val_main_v13 (F := Ideal) x0 x1 = Probe.dist x0 x1 := by
  funext y
  obtain ⟨b, i, j, rfl⟩ : ∃ (b : Fin 64) (i j : Fin 512), y = ix3 b i j := ⟨y 0, y 1, y 2, eq_ix3 y⟩
  rw [val_main_v13_apply, val_main_v12_apply, val_main_cst_1_apply, val_main_v11_apply, val_main_v10_apply, val_main_v9_apply,
    val_main_cst_0_apply, val_main_v8_apply, val_main_v6_apply, val_main_v4_apply, val_main_v7_apply, val_main_v5_apply]
  have hrow : idx_main_v4 (idx_main_v6 (ix3 b i j)) = ix2 b i :=
    funext fun a => Fin.ext (by match a with | ⟨0, _⟩ => rfl | ⟨1, _⟩ => rfl)
  have hcol : idx_main_v5 (idx_main_v7 (ix3 b i j)) = ix2 b j :=
    funext fun a => Fin.ext (by match a with | ⟨0, _⟩ => rfl | ⟨1, _⟩ => rfl)
  rw [hrow, hcol, sq_eq, sq_eq, gram_eq]
  rfl

end Cert.ReferenceIdeal.Bridge

end
-- ==== Proof.lean ====
/-
  A structural probe — a linear projection of token embeddings followed by the table of pairwise squared
  distances between the projected tokens of each sentence — computed by a blocked kernel and by a plain
  array program, is the same function of its two arguments over the extended reals.

  The arguments are a batch `x` of 64 sentences × 512 tokens × 1024 embedding coordinates and a weight matrix
  `w` of 128 × 1024. Both programs return

      dep (b, l, o)  = ∑ k, x (b,l,k) · w (o,k)
      dist (b, i, j) = max ((∑ o, dep (b,i,o)²) + (∑ o, dep (b,j,o)²) − 2 · ∑ o, dep (b,i,o) · dep (b,j,o)) 0

  (`Probe.proj`, `Probe.dist`). The kernel works on two sentences per grid point: it flattens them to 1024
  rows, multiplies by the transposed weights, folds the product back, and from that block forms the inner
  products (a batched product), the squared lengths (a sum along the last axis) as a column and, transposed,
  as a row, and combines them. It narrows its operands to a shorter float format before each product, which
  over the extended reals is the identity; a narrowing followed by the widening back, which the idealized
  kernel drops, is the one recorded rewrite (`preserves`). The plain program contracts the whole batch at
  once and sums from an explicit 0. No law of the extended reals is used beyond reindexing finite sums and
  `0 + a = a`: both sides add and multiply the same numbers in the same grouping, so the finiteness of the
  inputs is never needed.

  The modules: Spec (the two functions), Projection and Distance (the kernel body's two stored values read at
  an index), Arrays (each grid point writes its block of the two functions; the 32 blocks tile the arrays),
  Reference (the plain program's stages read down to the same sums). Here the five claims are assembled: the
  three programs run and keep their arguments (the kernels' by their generated frame, the plain program's by
  its generated run), the recorded rewrite holds, and the two idealized programs end with equal results.
-/
import proofs.«113304_j9405978378446_2_alg».proof.Defs
import proofs.«113304_j9405978378446_2_alg».proof.Proof.Gen.Kernel
import proofs.«113304_j9405978378446_2_alg».proof.Proof.Gen.Kernel.Skeleton
import proofs.«113304_j9405978378446_2_alg».proof.Proof.Gen.Kernel.Launch
import proofs.«113304_j9405978378446_2_alg».proof.Proof.Gen.Kernel.Points
import proofs.«113304_j9405978378446_2_alg».proof.Proof.Gen.Kernel.Frame
import proofs.«113304_j9405978378446_2_alg».proof.Proof.Gen.KernelIdeal
import proofs.«113304_j9405978378446_2_alg».proof.Proof.Gen.KernelIdeal.Skeleton
import proofs.«113304_j9405978378446_2_alg».proof.Proof.Gen.KernelIdeal.Launch
import proofs.«113304_j9405978378446_2_alg».proof.Proof.Gen.KernelIdeal.Points
import proofs.«113304_j9405978378446_2_alg».proof.Proof.Gen.KernelIdeal.Frame
import proofs.«113304_j9405978378446_2_alg».proof.Proof.Gen.KernelIdeal.Value
import proofs.«113304_j9405978378446_2_alg».proof.Proof.Gen.ReferenceIdeal
import proofs.«113304_j9405978378446_2_alg».proof.Proof.Gen.ReferenceIdeal.Run
import proofs.«113304_j9405978378446_2_alg».proof.Proof.Gen.ReferenceIdeal.Read
import proofs.«113304_j9405978378446_2_alg».proof.Proof.Gen.Pre_finite_inputs
import proofs.«113304_j9405978378446_2_alg».proof.Proof.Arrays
import proofs.«113304_j9405978378446_2_alg».proof.Proof.Reference
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The plain program runs and keeps its arguments: its run, with the results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The one recorded rewrite: narrowing the projected block to the shorter format and widening it back is the
    identity over the extended reals, and the rounding through that format on words. -/
theorem preserves : Cert.preserves_Kernel_KernelIdeal :=
  IdealRules.truncf_extf.statement Cert.KernelIdeal.S2x512x128 .f32 .bf16

/-- From arguments that agree, the idealized kernel ends with its two result arrays at the probe's two
    functions of the arguments (`Bridge.run`), and the plain program's two results are those functions too
    (`Bridge.dep_eq`, `Bridge.dist_eq`). -/
theorem algebraic : Cert.algebraic_KernelIdeal_ReferenceIdeal := by
  intro m ρ m' ρ' _ hagree
  refine ⟨fun c => Cert.KernelIdeal.Bridge.depOf m c, fun c => Cert.KernelIdeal.Bridge.distOf m c,
    Cert.KernelIdeal.Bridge.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2]
    exact (Cert.ReferenceIdeal.Read.val_main_v0_eq _ _).trans (Cert.ReferenceIdeal.Bridge.dep_eq _ _)
  · rw [(hagree c).1, (hagree c).2]
    exact (Cert.ReferenceIdeal.Read.val_main_v13_eq _ _).trans (Cert.ReferenceIdeal.Bridge.dist_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
